-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 23
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S1x128, .f32⟩
  | .hbm, ⟨21, _⟩ => ⟨S1x128, .f32⟩
  | .hbm, ⟨22, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute, stated once over plain arrays of extended reals.

  A node's output row is  x_p · W1 + b1 + a_p · W2 + b2,  where x_p is the node's own feature row and a_p the
  sum of its in-neighbours' feature rows.  Entry (p, q) therefore reads only row p of the two feature arrays,
  column q of the two weight matrices and entry q of the two biases.  The kernel adds the four terms from left
  to right; the reference adds the two affine maps.  Addition of extended reals is associative, so the two
  groupings agree with no assumption on the entries.
-/
import Idealize.ShloMosaic.Lib.ValueIdx
import Idealize.ShloMosaic.PureOps.Ideal

noncomputable section

namespace Cert.DualLinear

open Idealize.ShloMosaic Idealize.ShloMosaic.ValueIdx

/-- A feature array: one row of 128 features per node. -/
abbrev Feat : Shape := ⟨2, ![50000, 128]⟩
/-- A weight matrix. -/
abbrev Wt : Shape := ⟨2, ![128, 128]⟩

/-- Entry (p, q) of the layer, the four terms added from left to right:
    ((Σₖ X[p,k]·W1[k,q] + β1[q]) + Σₖ A[p,k]·W2[k,q]) + β2[q]. -/
def entry (X A : Feat.Idx → EReal) (W1 W2 : Wt.Idx → EReal) (β1 β2 : Fin 128 → EReal) (p : Fin 50000) (q : Fin 128) : EReal :=
  (((∑ k : Fin 128, X (ix2 p k) * W1 (ix2 k q)) + β1 q) + ∑ k : Fin 128, A (ix2 p k) * W2 (ix2 k q)) + β2 q

/-- The layer as an array: entry (i 0, i 1) at the index i. -/
def layer (X A : Feat.Idx → EReal) (W1 W2 : Wt.Idx → EReal) (β1 β2 : Fin 128 → EReal) : Feat.Idx → EReal :=
  fun i => entry X A W1 W2 β1 β2 (i 0) (i 1)

/-- The same entry as the sum of the two affine maps, (Σ X·W1 + β1) + (Σ A·W2 + β2): associativity of +. -/
theorem entry_two_affine (X A : Feat.Idx → EReal) (W1 W2 : Wt.Idx → EReal) (β1 β2 : Fin 128 → EReal) (p : Fin 50000) (q : Fin 128) :
    entry X A W1 W2 β1 β2 p q
      = ((∑ k : Fin 128, X (ix2 p k) * W1 (ix2 k q)) + β1 q) + ((∑ k : Fin 128, A (ix2 p k) * W2 (ix2 k q)) + β2 q) := by
  unfold entry
  exact add_assoc _ _ _

end Cert.DualLinear

end
-- ==== Proof.Payload.lean ====
/-
  What the kernel body stores, entry by entry.

  The body holds a block of 5000 node rows of the features X and of the neighbour sums A, both weight matrices
  and both biases (each bias as one row).  It rounds the four matrix operands to bf16 — no change of value on
  the extended reals —, multiplies each feature block by its weight matrix into a zero accumulator, and adds
  product, bias row, product, bias row in that order.  Entry (p, q) of what it stores is therefore

      ((Σₖ X[p,k]·W1[k,q] + b1[0,q]) + Σₖ A[p,k]·W2[k,q]) + b2[0,q],

  the sums over the 128 features.  Only row p of the two feature blocks is read.
-/
import proofs.«168419_j41523743818235_1_alg».proof.Proof.Gen.KernelIdeal.Skeleton
import proofs.«168419_j41523743818235_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.DualLinear

/-- The body's matrix product: a block of 5000 rows against a 128×128 matrix, the feature axis contracted. -/
abbrev blockDot : DotDims S5000x128 S128x128 S5000x128 := dot_S5000x128_S128x128_S5000x128_1_0_0_1_n_n

/-- The left operand is read in the output entry's row, -/
theorem lhs_row (j : S5000x128.Idx) (q : blockDot.contr.Idx) : (blockDot.lhsIdx j q 0).val = (j 0).val := by
  unfold DotDims.lhsIdx
  rw [dif_neg (show ¬(0 : Fin S5000x128.rank) ∈ blockDot.lhsBatch by decide), dif_pos (show (0 : Fin S5000x128.rank) ∈ blockDot.lhsNonContracting by decide)]
  rfl
/-- at the contracted feature; -/
theorem lhs_feat (j : S5000x128.Idx) (q : blockDot.contr.Idx) : (blockDot.lhsIdx j q 1).val = (q ⟨0, by decide⟩).val :=
  blockDot.lhsIdx_val_of_single rfl j q
/-- the right operand at the contracted feature, -/
theorem rhs_feat (j : S5000x128.Idx) (q : blockDot.contr.Idx) : (blockDot.rhsIdx j q 0).val = (q ⟨0, by decide⟩).val :=
  blockDot.rhsIdx_val_of_single rfl j q
/-- in the output entry's column. -/
theorem rhs_col (j : S5000x128.Idx) (q : blockDot.contr.Idx) : (blockDot.rhsIdx j q 1).val = (j 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The product into a zero accumulator, at entry (p, q): the sum over the features k of L[p,k]·R[k,q]. -/
theorem blockDot_apply (l : FVec Ideal S5000x128 .bf16) (r : FVec Ideal S128x128 .bf16) (p : Fin 5000) (q : Fin 128) :
    matmul blockDot none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx (ix2 p q) ((ValueIdx.contrEquiv1 blockDot 128 rfl rfl).symm k) = ix2 p k := funext fun a => Fin.ext (by
    match a with
    | ⟨0, _⟩ => exact lhs_row _ _
    | ⟨1, _⟩ => exact (lhs_feat _ _).trans hk)
  have er : blockDot.rhsIdx (ix2 p q) ((ValueIdx.contrEquiv1 blockDot 128 rfl rfl).symm k) = ix2 k q := funext fun a => Fin.ext (by
    match a with
    | ⟨0, _⟩ => exact (rhs_feat _ _).trans hk
    | ⟨1, _⟩ => exact rhs_col _ _)
  rw [el, er]

/-- THE STORED ENTRY: the body's result at (p, q) from row p of the two feature blocks, column q of the two weight
    matrices and entry q of the two bias rows, the four terms added from left to right. -/
theorem stored_apply (x a : FVec Ideal S5000x128 .f32) (w1 w2 : FVec Ideal S128x128 .f32) (b1 b2 : FVec Ideal S1x128 .f32)
    (p : Fin 5000) (q : Fin 128) :
    k0_pay1 (F := Ideal) x a w1 w2 b1 b2 (ix2 p q)
      = (((∑ k : Fin 128, x (ix2 p k) * w1 (ix2 k q)) + b1 (ix2 (0 : Fin 1) q))
          + ∑ k : Fin 128, a (ix2 p k) * w2 (ix2 k q)) + b2 (ix2 (0 : Fin 1) q) := by
  unfold k0_pay1
  simp only [addf_apply, blockDot_apply, truncf_apply, shapeCast_self, broadcastTo_1b_ab_apply]

/-- THE STORED ENTRY IS THE LAYER'S, for blocks cut from whole arrays: if row p of the two feature blocks is row P of
    the feature arrays, and the weight blocks and bias rows are the weights and biases (in the column q), then the body's
    entry (p, q) is the layer's entry (P, q). -/
theorem entry_of_blocks (xb ab : FVec Ideal S5000x128 .f32) (w1b w2b : FVec Ideal S128x128 .f32) (b1b b2b : FVec Ideal S1x128 .f32)
    (X A : Feat.Idx → EReal) (W1 W2 : Wt.Idx → EReal) (β1 β2 : Fin 128 → EReal)
    (p : Fin 5000) (q : Fin 128) (P : Fin 50000)
    (hx : ∀ k : Fin 128, xb (ix2 p k) = X (ix2 P k)) (ha : ∀ k : Fin 128, ab (ix2 p k) = A (ix2 P k))
    (hw1 : ∀ k : Fin 128, w1b (ix2 k q) = W1 (ix2 k q)) (hw2 : ∀ k : Fin 128, w2b (ix2 k q) = W2 (ix2 k q))
    (hb1 : b1b (ix2 (0 : Fin 1) q) = β1 q) (hb2 : b2b (ix2 (0 : Fin 1) q) = β2 q) :
    k0_pay1 (F := Ideal) xb ab w1b w2b b1b b2b (ix2 p q) = layer X A W1 W2 β1 β2 (ix2 P q) := by
  rw [stored_apply]
  show _ = entry X A W1 W2 β1 β2 P q
  unfold entry
  simp only [hx, ha, hw1, hw2, hb1, hb2]

end Cert.KernelIdeal.Body

end
-- ==== Proof.KernelValue.lean ====
/-
  The kernel's result array, whole.

  The grid has 10 points; point t works on node rows 5000·t … 5000·t + 4999.  Its blocks of the features X and
  of the neighbour sums A are those rows; its blocks of the two weight matrices and of the two bias rows are
  the whole arrays, at every point.  So what point t writes back — the body's stored block — is, entry by entry,
  the layer of the whole arrays read at those rows (the stored entry reads only its own row of X and A).  The ten
  row blocks tile the result array, which therefore ends holding the layer everywhere.
-/
import proofs.«168419_j41523743818235_1_alg».proof.Proof.Gen.KernelIdeal.Value
import proofs.«168419_j41523743818235_1_alg».proof.Proof.Payload
import proofs.«168419_j41523743818235_1_alg».proof.Proof.Spec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.DualLinear

variable (m : (ℓ : Loc nD τ sig) → Buf (Elt Ideal) ℓ) (ρ : Dev nD → PrngReg)

theorem zero_offsets : (![0, 0] : Fin 2 → Nat) = fun _ => 0 := funext fun a => by fin_cases a <;> rfl

/-- The body's one store through the whole block leaves its payload: the stored block as a function of the six loaded
    blocks (the loads are whole-block loads too). -/
theorem stored_eq (x0 x1 : Vec Ideal S5000x128 .f32) (x2 : Vec Ideal S128x128 .f32) (x3 : Vec Ideal S1x128 .f32)
    (x4 : Vec Ideal S128x128 .f32) (x5 : Vec Ideal S1x128 .f32) :
    out0_6 x0 x1 x2 x3 x4 x5 = k0_pay1 x0 x1 x2 x4 x3 x5 := by
  unfold out0_6
  rw [View.canon_unit_zero zero_offsets]
  simp only [View.ld_unit_zero (S := S5000x128) zero_offsets, View.ld_unit_zero (S := S128x128) zero_offsets,
    View.ld_unit_zero (S := S1x128) zero_offsets]

/-- Where each window's block sits at point t, decided over the ten points: the row blocks of X, A and of the
    result are block t; every other window's block is its whole array. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of X is row 5000·t + p of X. -/
theorem read_X (t : Fin cfg0.N) (X : S50000x128.Idx → EReal) (p : Fin 5000) (k : Fin 128) (P : Fin 50000)
    (hP : P.val = t.val * 5000 + p.val) :
    ((cfg0.win 0).blk t).view.read (Elt Ideal) X (ix2 p k) = X (ix2 P k) := by
  obtain ⟨e0, e1, -⟩ := block_positions t
  rw [View.read_apply, cast_eq]
  refine congrArg X (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- Row p of point t's block of A is row 5000·t + p of A. -/
theorem read_A (t : Fin cfg0.N) (A : S50000x128.Idx → EReal) (p : Fin 5000) (k : Fin 128) (P : Fin 50000)
    (hP : P.val = t.val * 5000 + p.val) :
    ((cfg0.win 1).blk t).view.read (Elt Ideal) A (ix2 p k) = A (ix2 P k) := by
  obtain ⟨-, -, e0, e1, -⟩ := block_positions t
  rw [View.read_apply, cast_eq]
  refine congrArg A (funext fun a => Fin.ext ?_)
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

/-- The block of the first weight matrix is the matrix. -/
theorem read_W1 (t : Fin cfg0.N) (W : S128x128.Idx → EReal) (k q : Fin 128) :
    ((cfg0.win 2).blk t).view.read (Elt Ideal) W (ix2 k q) = W (ix2 k q) := by
  obtain ⟨-, -, -, -, e0, e1, -⟩ := block_positions t
  rw [View.read_apply, cast_eq]
  refine congrArg W (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The block of the first bias row is the row. -/
theorem read_b1 (t : Fin cfg0.N) (B : S1x128.Idx → EReal) (q : Fin 128) :
    ((cfg0.win 3).blk t).view.read (Elt Ideal) B (ix2 (0 : Fin 1) q) = B (ix2 (0 : Fin 1) q) := by
  obtain ⟨-, -, -, -, -, -, e0, e1, -⟩ := block_positions t
  rw [View.read_apply, cast_eq]
  refine congrArg B (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The block of the second weight matrix is the matrix. -/
theorem read_W2 (t : Fin cfg0.N) (W : S128x128.Idx → EReal) (k q : Fin 128) :
    ((cfg0.win 4).blk t).view.read (Elt Ideal) W (ix2 k q) = W (ix2 k q) := by
  obtain ⟨-, -, -, -, -, -, -, -, e0, e1, -⟩ := block_positions t
  rw [View.read_apply, cast_eq]
  refine congrArg W (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The block of the second bias row is the row. -/
theorem read_b2 (t : Fin cfg0.N) (B : S1x128.Idx → EReal) (q : Fin 128) :
    ((cfg0.win 5).blk t).view.read (Elt Ideal) B (ix2 (0 : Fin 1) q) = B (ix2 (0 : Fin 1) q) := by
  obtain ⟨-, -, -, -, -, -, -, -, -, -, e0, e1, -⟩ := block_positions t
  rw [View.read_apply, cast_eq]
  refine congrArg B (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- The layer of the arrays as the region finds them: X, the neighbour sums, the weights, and each bias read off
    its one row. -/
def G (c : Dev nD) : S50000x128.Idx → EReal :=
  layer (V m c main_arg0) (V m c main_v9) (V m c main_arg3) (V m c main_arg5)
    (fun q => (V m c main_v10 : S1x128.Idx → EReal) (ix2 (0 : Fin 1) q))
    (fun q => (V m c main_v11 : S1x128.Idx → EReal) (ix2 (0 : Fin 1) q))

/-- Entry (p, q) of what the body stores at point t is the layer's entry (5000·t + p, q). -/
theorem stored_at (c : Dev nD) (t : Fin cfg0.N) (p : Fin 5000) (q : Fin 128) (P : Fin 50000) (hP : P.val = t.val * 5000 + p.val) :
    out0_6 (iblk m c 0 t) (iblk m c 1 t) (iblk m c 2 t) (iblk m c 3 t) (iblk m c 4 t) (iblk m c 5 t) (ix2 p q)
      = G m c (ix2 P q) := by
  rw [stored_eq]
  unfold G
  exact Body.entry_of_blocks (iblk m c 0 t) (iblk m c 1 t) (iblk m c 2 t) (iblk m c 4 t) (iblk m c 3 t) (iblk m c 5 t)
    (V m c main_arg0) (V m c main_v9) (V m c main_arg3) (V m c main_arg5) _ _ p q P
    (fun k => read_X t (V m c main_arg0) p k P hP) (fun k => read_A t (V m c main_v9) p k P hP)
    (fun k => read_W1 t (V m c main_arg3) k q) (fun k => read_W2 t (V m c main_arg5) k q)
    (read_b1 t (V m c main_v10) q) (read_b2 t (V m c main_v11) q)

/-- WHAT POINT t WRITES BACK is block t of the layer. -/
theorem stored_block (c : Dev nD) (t : Fin cfg0.N) :
    (dats m 0 c).flushed 6 t = ((cfg0.win 6).blk t).view.read (Elt Ideal) (G m c) := by
  rw [Value.flushed6]
  funext j
  rw [View.read_apply, cast_eq]
  have hj0 : (j 0).val < 5000 := (j 0).isLt
  have hj1 : (j 1).val < 128 := (j 1).isLt
  have ht : t.val < 10 := Nat.lt_of_lt_of_eq t.isLt N_0
  obtain ⟨-, -, -, -, -, -, -, -, -, -, -, -, e0, e1⟩ := block_positions t
  have hy : (cfg0.win 6).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have hi : ((cfg0.win 6).blk t).view.emb j
      = ix2 (⟨t.val * 5000 + (j 0).val, by omega⟩ : Fin 50000) (⟨(j 1).val, hj1⟩ : Fin 128) :=
    funext fun a => Fin.ext (by
      match a with
      | ⟨0, _⟩ => show win0_6.index t (0 : Fin 2) * 5000 + 1 * (j 0).val = t.val * 5000 + (j 0).val; rw [e0]; omega
      | ⟨1, _⟩ => show win0_6.index t (1 : Fin 2) * 128 + 1 * (j 1).val = (j 1).val; rw [e1]; omega)
  show out0_6 (iblk m c 0 t) (iblk m c 1 t) (iblk m c 2 t) (iblk m c 3 t) (iblk m c 4 t) (iblk m c 5 t)
      ((cfg0.win 6).xinj (grid0.coords t) j) = G m c (((cfg0.win 6).blk t).view.emb j)
  rw [hy, hi]
  exact stored_at m c t _ _ _ rfl

/-- An index of the result array is in point t's block iff each coordinate is in the block's range on its axis. -/
theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v12).slice (win0_6.rect t)).set ↔ _
  rw [View.set_slice_whole, Rect.mem_set_unit]
  exact Iff.rfl

/-- Every index of the result array is in the block of the point its row falls to: row r is in block r / 5000. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, -, -, e0, e1⟩ := block_positions t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE RESULT ARRAY after the run is the layer of the arrays as the region finds them. -/
theorem final (c : Dev nD) : (dats m 0 c).arrAt 6 cfg0.N = G m c :=
  (dats m 0 c).arrAt_eq_of_cover 6 (G m c) (fun t _ => stored_block m c t) covered

/-- The run, read: the result array at the layer, the arguments unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Whole

end
-- ==== Proof.HostPrefix.lean ====
/-
  What the region finds in the arrays the host operations wrote before it.

  Before the one kernel launch the program normalises the source indices, gathers the source rows, adds them
  into their destination rows (the neighbour sums A), and reshapes each bias to one row.  The first stretch is,
  operation for operation, the reference's own: the region finds in the neighbour-sum array exactly the stage
  the reference computes from the same three arguments.  This holds for any float values — nothing of the gather
  or of the sum is opened.
-/
import proofs.«168419_j41523743818235_1_alg».proof.Proof.Gen.KernelIdeal.Frame
import proofs.«168419_j41523743818235_1_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- The neighbour sums as the region finds them: the reference's stage of the features, the source indices and the
    destination indices as launched. -/
theorem V_sums (c : Dev nD) :
    (V m c main_v9 : S50000x128.Idx → F .f32)
      = Cert.ReferenceIdeal.Read.val_main_v9 (F := F) (m ((c : Thread nD τ).loc main_arg0))
          (m ((c : Thread nD τ).loc main_arg1)) (m ((c : Thread nD τ).loc main_arg2)) := by
  dsimp only [Gen.V, Gen.hostOps0]
  after_results_simp
  rfl

set_option maxHeartbeats 2000000 in
/-- The first bias as the region finds it: the argument laid out as one row. -/
theorem V_bias1 (c : Dev nD) :
    (V m c main_v10 : S1x128.Idx → F .f32) = shapeCast S1x128 (m ((c : Thread nD τ).loc main_arg4)) shapeCasts_S128_S1x128 := by
  dsimp only [Gen.V, Gen.hostOps0]
  after_results_simp
  rfl

set_option maxHeartbeats 2000000 in
/-- The second bias as the region finds it: the argument laid out as one row. -/
theorem V_bias2 (c : Dev nD) :
    (V m c main_v11 : S1x128.Idx → F .f32) = shapeCast S1x128 (m ((c : Thread nD τ).loc main_arg6)) shapeCasts_S128_S1x128 := by
  dsimp only [Gen.V, Gen.hostOps0]
  after_results_simp
  rfl

end Cert.KernelIdeal.Host

end
-- ==== Proof.RefValue.lean ====
/-
  The reference's result, entry by entry, is the layer of Spec.lean.

  The reference computes the neighbour sums A with the same host operations as the kernel's program, then
  (X·W1 + b1) + (A·W2 + b2) with two whole-array matrix products.  Read at the entry (p, q): each product is the
  sum over the 128 features, each bias is read at q, and the two affine maps are added — the layer's entry with
  its four terms grouped two and two.
-/
import proofs.«168419_j41523743818235_1_alg».proof.Proof.Gen.ReferenceIdeal.Read
import proofs.«168419_j41523743818235_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.DualLinear

/-- The first product reads X in row p at feature k, -/
theorem lidx10 (p : Fin 50000) (q k : Fin 128) : lidx_main_v10 (ix2 p q) k = ix2 p k :=
  funext fun a => Fin.ext (by match a with | ⟨0, _⟩ => rfl | ⟨1, _⟩ => rfl)
/-- and W1 at feature k in column q; -/
theorem ridx10 (p : Fin 50000) (q k : Fin 128) : ridx_main_v10 (ix2 p q) k = ix2 k q :=
  funext fun a => Fin.ext (by match a with | ⟨0, _⟩ => rfl | ⟨1, _⟩ => rfl)
/-- the second product reads A in row p at feature k, -/
theorem lidx14 (p : Fin 50000) (q k : Fin 128) : lidx_main_v14 (ix2 p q) k = ix2 p k :=
  funext fun a => Fin.ext (by match a with | ⟨0, _⟩ => rfl | ⟨1, _⟩ => rfl)
/-- and W2 at feature k in column q. -/
theorem ridx14 (p : Fin 50000) (q k : Fin 128) : ridx_main_v14 (ix2 p q) k = ix2 k q :=
  funext fun a => Fin.ext (by match a with | ⟨0, _⟩ => rfl | ⟨1, _⟩ => rfl)
/-- A bias broadcast to one row and then to every row is read at the entry's column. -/
theorem bias1_idx (p : Fin 50000) (q : Fin 128) : idx_main_v11 (idx_main_v12 (ix2 p q)) = ix1 q :=
  funext fun a => Fin.ext (by match a with | ⟨0, _⟩ => rfl)
theorem bias2_idx (p : Fin 50000) (q : Fin 128) : idx_main_v15 (idx_main_v16 (ix2 p q)) = ix1 q :=
  funext fun a => Fin.ext (by match a with | ⟨0, _⟩ => rfl)

/-- THE REFERENCE'S RESULT is the layer of X, the neighbour sums the program computes, the weights and the biases. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v18 (F := Ideal) x0 x1 x2 x3 x4 x5 x6
      = layer x0 (val_main_v9 (F := Ideal) x0 x1 x2) x3 x5 (fun q => x4 (ix1 q)) (fun q => x6 (ix1 q)) := by
  funext i
  obtain ⟨p, q, rfl⟩ : ∃ (p : Fin 50000) (q : Fin 128), i = ix2 p q := ⟨i 0, i 1, eq_ix2 i⟩
  rw [val_main_v18_apply, val_main_v13_apply, val_main_v17_apply, val_main_v10_apply, val_main_v14_apply,
    val_main_v12_apply, val_main_v11_apply, val_main_v16_apply, val_main_v15_apply]
  generalize val_main_v9 (F := Ideal) x0 x1 x2 = A
  simp only [lidx10, ridx10, lidx14, ridx14, bias1_idx, bias2_idx, Ideal.addf_def]
  exact (entry_two_affine x0 A x3 x5 (fun q => x4 (ix1 q)) (fun q => x6 (ix1 q)) p q).symm

end Cert.ReferenceIdeal.RefValue

end
-- ==== Proof.lean ====
/-
  A graph-convolution layer: every node's feature row times W1, plus b1, plus the sum of its in-neighbours'
  feature rows times W2, plus b2.  Both programs form the neighbour sums with the same host operations (gather
  the source rows, add them into the destination rows).  The kernel then handles 5000 node rows per grid point:
  it multiplies the two row blocks by the two weight matrices and adds product, bias, product, bias from left to
  right.  The reference multiplies the whole arrays and adds the two affine maps.

  On the extended reals the roundings to bf16 are the identity, each matrix product is the plain sum over the 128
  features, and the two groupings of the four terms agree by associativity of addition alone — so the two results
  are equal entry by entry for ALL extended-real inputs; finiteness of the inputs is not used.

  The modules: Spec (the layer as one function; the regrouping), Payload (the body's stored entry), KernelValue
  (each point's block is a block of the layer; the ten blocks tile the result), HostPrefix (the arrays the region
  finds are the reference's neighbour-sum stage and the reshaped biases), RefValue (the reference's result is the
  layer).  Here: the two sides meet, and the five claims.
-/
import proofs.«168419_j41523743818235_1_alg».proof.Defs
import proofs.«168419_j41523743818235_1_alg».proof.Proof.Gen.Kernel
import proofs.«168419_j41523743818235_1_alg».proof.Proof.Gen.Kernel.Skeleton
import proofs.«168419_j41523743818235_1_alg».proof.Proof.Gen.Kernel.Launch
import proofs.«168419_j41523743818235_1_alg».proof.Proof.Gen.Kernel.Points
import proofs.«168419_j41523743818235_1_alg».proof.Proof.Gen.Kernel.Frame
import proofs.«168419_j41523743818235_1_alg».proof.Proof.Gen.KernelIdeal
import proofs.«168419_j41523743818235_1_alg».proof.Proof.Gen.KernelIdeal.Skeleton
import proofs.«168419_j41523743818235_1_alg».proof.Proof.Gen.KernelIdeal.Launch
import proofs.«168419_j41523743818235_1_alg».proof.Proof.Gen.KernelIdeal.Points
import proofs.«168419_j41523743818235_1_alg».proof.Proof.Gen.KernelIdeal.Frame
import proofs.«168419_j41523743818235_1_alg».proof.Proof.Gen.ReferenceIdeal
import proofs.«168419_j41523743818235_1_alg».proof.Proof.Gen.KernelIdeal.Value
import proofs.«168419_j41523743818235_1_alg».proof.Proof.Gen.ReferenceIdeal.Run
import proofs.«168419_j41523743818235_1_alg».proof.Proof.Gen.ReferenceIdeal.Read
import proofs.«168419_j41523743818235_1_alg».proof.Proof.Gen.Pre_finite_inputs
import proofs.«168419_j41523743818235_1_alg».proof.Proof.Spec
import proofs.«168419_j41523743818235_1_alg».proof.Proof.KernelValue
import proofs.«168419_j41523743818235_1_alg».proof.Proof.HostPrefix
import proofs.«168419_j41523743818235_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.DualLinear

/-- The layer of equal arrays is the same array. -/
theorem layer_congr {X X' A A' : Feat.Idx → EReal} {W1 W1' W2 W2' : Wt.Idx → EReal} {β1 β1' β2 β2' : Fin 128 → EReal}
    (hX : X = X') (hA : A = A') (hW1 : W1 = W1') (hW2 : W2 = W2') (hβ1 : β1 = β1') (hβ2 : β2 = β2') :
    layer X A W1 W2 β1 β2 = layer X' A' W1' W2' β1' β2' := by
  subst hX hA hW1 hW2 hβ1 hβ2; rfl

section Kernel

open Cert.KernelIdeal Cert.KernelIdeal.Gen

/-- The arrays the region finds, named by the launch: X and the weights are the arguments, the neighbour sums are the
    reference's stage of the arguments, and a bias laid out as one row reads at (0, q) the argument's entry q.  So the
    kernel's result is the layer of the launch arrays. -/
theorem G_launch (m : (ℓ : Loc nD τ sig) → Buf (Elt Ideal) ℓ) (c : Dev nD) :
    Cert.KernelIdeal.Whole.G m c
      = layer (m ((c : Thread nD τ).loc main_arg0))
          (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg3)) (m ((c : Thread nD τ).loc main_arg5))
          (fun q => (m ((c : Thread nD τ).loc main_arg4) : S128.Idx → EReal) (ix1 q))
          (fun q => (m ((c : Thread nD τ).loc main_arg6) : S128.Idx → EReal) (ix1 q)) := by
  unfold Cert.KernelIdeal.Whole.G
  exact layer_congr (V_main_arg0 m c) (Cert.KernelIdeal.Host.V_sums (F := Ideal) m c) (V_main_arg3 m c) (V_main_arg5 m c)
    (funext fun q => (congrFun (Cert.KernelIdeal.Host.V_bias1 (F := Ideal) m c) (ix2 (0 : Fin 1) q)).trans
      (shapeCast_a_1a_apply _ _ (0 : Fin 1) q))
    (funext fun q => (congrFun (Cert.KernelIdeal.Host.V_bias2 (F := Ideal) m c) (ix2 (0 : Fin 1) q)).trans
      (shapeCast_a_1a_apply _ _ (0 : Fin 1) q))

end Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both results are the layer of the (agreeing) launch arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v18_eq, Cert.ReferenceIdeal.RefValue.result_eq, a0, a1, a2, a3, a4, a5, a6]
  exact (G_launch m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
